-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S_ : Shape := ⟨0, ![]⟩
abbrev S1000000x128 : Shape := ⟨2, ![1000000, 128]⟩

class Facts : Prop where
  bcast_S_S1000000x128 : S_.BroadcastsInDim S1000000x128 (![] : Fin 0 → Fin S1000000x128.rank)
  reducesTo_S1000000x128_S_d0_1 : S1000000x128.ReducesTo [0, 1] S_
  h_S_ : 0 < S_.numel
  reducesTo_S_S_d : S_.ReducesTo [] S_

variable [Facts]

def fn {F : FTy → Type} [FloatOps F] (main_arg0 : IVec S_ 32) (main_arg1 : FVec F S1000000x128 .f32) : IVec S_ 1 :=
  let main_v0 : FVec F S1000000x128 .f32 := Host.absf main_arg1
  let main_cst : FVec F S_ .f32 := constant S_ .f32 0x7F800000#32
  let main_v1 : FVec F S1000000x128 .f32 := broadcastInDim S1000000x128 ![] bcast_S_S1000000x128 main_cst
  let main_v2 : IVec S1000000x128 1 := cmpf .olt main_v0 main_v1
  let main_c : IVec S_ 1 := constantI S_ 1 1#1
  let main_v3 : IVec S_ 1 := (fun x v => Host.reduce IntOp.andi x v reducesTo_S1000000x128_S_d0_1 h_S_) main_v2 main_c
  let main_c_0 : IVec S_ 32 := constantI S_ 32 777#32
  let main_v4 : IVec S_ 1 := cmpi .sge main_arg0 main_c_0
  let main_c_1 : IVec S_ 32 := constantI S_ 32 777#32
  let main_v5 : IVec S_ 1 := cmpi .sle main_arg0 main_c_1
  let main_v6 : IVec S_ 1 := andi main_v4 main_v5
  let main_c_2 : IVec S_ 1 := constantI S_ 1 1#1
  let main_v7 : IVec S_ 1 := (fun x v => Host.reduce IntOp.andi x v reducesTo_S_S_d h_S_) main_v6 main_c_2
  let main_v8 : IVec S_ 1 := andi main_v3 main_v7
  main_v8
-- ==== Kernel.lean ====
abbrev S_ : Shape := ⟨0, ![]⟩
abbrev S1000000x128 : Shape := ⟨2, ![1000000, 128]⟩
abbrev S1 : Shape := ⟨1, ![1]⟩
abbrev S1x128 : Shape := ⟨2, ![1, 128]⟩

abbrev nBuf : Table → Nat
  | .hbm => 4
  | .local .scScalar .smem => 1
  | _ => 0

abbrev bufTy : (tb : Table) → Fin (nBuf tb) → BufTy
  | .hbm, ⟨0, _⟩ => ⟨S_, .i32⟩
  | .hbm, ⟨1, _⟩ => ⟨S1000000x128, .f32⟩
  | .hbm, ⟨2, _⟩ => ⟨S1, .i32⟩
  | .hbm, ⟨3, _⟩ => ⟨S1x128, .f32⟩
  | .local .scScalar .smem, ⟨0, _⟩ => ⟨S1, .i32⟩
  | _, _ => ⟨S_, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 2 → Bool
  | ⟨0, _⟩ => false
  | ⟨1, _⟩ => false
  | _ => false

abbrev sig : RefSig :=
  ofTables nBuf rfl bufTy 4 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v0_scs : Ref sig .scScalar := ⟨.hbm, 2, rfl⟩
abbrev main_arg1_scs : Ref sig .scScalar := ⟨.hbm, 1, rfl⟩
abbrev main_v1_scs : Ref sig .scScalar := ⟨.hbm, 3, rfl⟩
abbrev cc0_scratch0 : Ref sig .scScalar := ⟨.smem, 0, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![1], ![false]⟩

def k0_off1 (v1 : BitVec 32) : Fin 2 → Nat :=
  let c0_i32_0_r1 : BitVec 32 := 0#32
  ![v1.toNat, 0]

def k0_chk1 (v1 : BitVec 32) : Prop :=
  (∀ a, (k0_off1 v1) a + S1x128.size a ≤ S1000000x128.size a)
instance k0_chk1.dec : ∀ (v1 : BitVec 32), Decidable (k0_chk1 v1) := fun v1 => decidable_of_iff' _ (Iff.of_eq (k0_chk1.eq_1 v1))
theorem k0_off1_inb : ∀ (v1 : BitVec 32) (k0_hw1 : k0_chk1 v1), ∀ a, (k0_off1 v1) a + S1x128.size a ≤ S1000000x128.size a := fun v1 k0_hw1 => k0_hw1

abbrev scKind : Fin 1 → Kind := fun | 0 => .scScalar | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))

class Facts₀ : Prop where
  shapeCasts_S_S1 : S_.ShapeCasts S1
  inb_S1_S1_0 : ∀ a, (![0] : Fin 1 → Nat) a + S1.size a ≤ S1.size a
  numel1_S1 : S1.numel = 1
  hcc0_scoped0 : 0 + S_.numel ≤ 2
  hcc0_scoped1 : 1 + S_.numel ≤ 2
  hscKind : ∀ q, scKind q ≠ .tc
  hscCore : ∀ q, scNCore q ≤ τ.nSC
  hscSub : ∀ q, scNSub q ≤ τ.nSub
  hcore0 : grid0.bound 0 ≤ τ.nSC

variable [Facts₀]

abbrev cc0_scoped0 : DmaSems sig S_ := SemArray.consecutive 0 S_ hcc0_scoped0
abbrev cc0_scoped1 : DmaSems sig S_ := SemArray.consecutive 1 S_ hcc0_scoped1

class Facts : Prop extends Facts₀ where

variable [Facts]
-- ==== ReferenceIdeal.lean ====
abbrev S_ : Shape := ⟨0, ![]⟩
abbrev S1000000x128 : Shape := ⟨2, ![1000000, 128]⟩
abbrev S1x1 : Shape := ⟨2, ![1, 1]⟩
abbrev S1x1x1 : Shape := ⟨3, ![1, 1, 1]⟩
abbrev S1 : Shape := ⟨1, ![1]⟩
abbrev S1x1x128 : Shape := ⟨3, ![1, 1, 128]⟩
abbrev S1x128 : Shape := ⟨2, ![1, 128]⟩

abbrev nBuf : Space → Nat
  | .hbm => 26
  | .vmem => 0
  | .smem => 0
  | _ => 0

abbrev bufTy : (tb : Table) → Fin (tcTables nBuf tb) → BufTy
  | .hbm, ⟨0, _⟩ => ⟨S_, .i32⟩
  | .hbm, ⟨1, _⟩ => ⟨S1000000x128, .f32⟩
  | .hbm, ⟨2, _⟩ => ⟨S1x1, .i32⟩
  | .hbm, ⟨3, _⟩ => ⟨S_, .i32⟩
  | .hbm, ⟨4, _⟩ => ⟨S1x1, .i32⟩
  | .hbm, ⟨5, _⟩ => ⟨S1x1, .i1⟩
  | .hbm, ⟨6, _⟩ => ⟨S_, .i32⟩
  | .hbm, ⟨7, _⟩ => ⟨S1x1, .i32⟩
  | .hbm, ⟨8, _⟩ => ⟨S1x1, .i32⟩
  | .hbm, ⟨9, _⟩ => ⟨S1x1, .i32⟩
  | .hbm, ⟨10, _⟩ => ⟨S1x1x1, .i32⟩
  | .hbm, ⟨11, _⟩ => ⟨S1, .i32⟩
  | .hbm, ⟨12, _⟩ => ⟨S_, .i32⟩
  | .hbm, ⟨13, _⟩ => ⟨S1x1x1, .i32⟩
  | .hbm, ⟨14, _⟩ => ⟨S1x1x1, .i1⟩
  | .hbm, ⟨15, _⟩ => ⟨S1x1x1, .i32⟩
  | .hbm, ⟨16, _⟩ => ⟨S1x1x1, .i1⟩
  | .hbm, ⟨17, _⟩ => ⟨S1x1x1, .i1⟩
  | .hbm, ⟨18, _⟩ => ⟨S_, .i1⟩
  | .hbm, ⟨19, _⟩ => ⟨S1x1, .i1⟩
  | .hbm, ⟨20, _⟩ => ⟨S1x1x128, .f32⟩
  | .hbm, ⟨21, _⟩ => ⟨S1x1x128, .i1⟩
  | .hbm, ⟨22, _⟩ => ⟨S_, .f32⟩
  | .hbm, ⟨23, _⟩ => ⟨S1x1x128, .f32⟩
  | .hbm, ⟨24, _⟩ => ⟨S1x1x128, .f32⟩
  | .hbm, ⟨25, _⟩ => ⟨S1x128, .f32⟩
  | _, _ => ⟨S_, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_c_3 : Ref sig .tc := ⟨.hbm, 18, rfl⟩
abbrev main_call0_v11 : Ref sig .tc := ⟨.hbm, 19, rfl⟩
abbrev main_call0_v12 : Ref sig .tc := ⟨.hbm, 20, rfl⟩
abbrev main_call0_v13 : Ref sig .tc := ⟨.hbm, 21, rfl⟩
abbrev main_call0_cst : Ref sig .tc := ⟨.hbm, 22, rfl⟩
abbrev main_call0_v14 : Ref sig .tc := ⟨.hbm, 23, rfl⟩
abbrev main_v1 : Ref sig .tc := ⟨.hbm, 24, rfl⟩
abbrev main_v2 : Ref sig .tc := ⟨.hbm, 25, rfl⟩

abbrev nD : Nat := 1
abbrev τ : Topo := Topo.v7x

variable {F : FTy → Type} [FloatOps F]

class Facts₀ : Prop where
  shapeCasts_S_S1x1 : S_.ShapeCasts S1x1
  bcast_S_S1x1 : S_.BroadcastsInDim S1x1 (![] : Fin 0 → Fin S1x1.rank)
  bcast_S1x1_S1x1x1_0_1 : S1x1.BroadcastsInDim S1x1x1 (![0, 1] : Fin 2 → Fin S1x1x1.rank)
  bcast_S_S1x1x1 : S_.BroadcastsInDim S1x1x1 (![] : Fin 0 → Fin S1x1x1.rank)
  bcast_S1_S1x1x1_2 : S1.BroadcastsInDim S1x1x1 (![2] : Fin 1 → Fin S1x1x1.rank)
  reducesTo_S1x1x1_S1x1_d2 : S1x1x1.ReducesTo [2] S1x1
  h_S_ : 0 < S_.numel
  bcast_S1x1_S1x1x128_0_1 : S1x1.BroadcastsInDim S1x1x128 (![0, 1] : Fin 2 → Fin S1x1x128.rank)
  bcast_S_S1x1x128 : S_.BroadcastsInDim S1x1x128 (![] : Fin 0 → Fin S1x1x128.rank)
  shapeCasts_S1x1x128_S1x128 : S1x1x128.ShapeCasts S1x128
  gather_S1000000x128_S1x1x1_S1x1x128_2_0_n_n_0_2_1128_wf : GatherDims.WF S1000000x128 S1x1x1 S1x1x128 [2] [0] [] [0] [] 2 ![1, 128]

variable [Facts₀]

def gather_S1000000x128_S1x1x1_S1x1x128_2_0_n_n_0_2_1128 : GatherDims S1000000x128 S1x1x1 S1x1x128 where
  offsetDims := [2]
  collapsedSliceDims := [0]
  operandBatchingDims := []
  startIndicesBatchingDims := []
  startIndexMap := [0]
  indexVectorDim := 2
  sliceSizes := ![1, 128]
  wf := gather_S1000000x128_S1x1x1_S1x1x128_2_0_n_n_0_2_1128_wf

class Facts : Prop extends Facts₀ where

variable [Facts]
-- ==== Proof.LookupBits.lean ====
/-
  The run of the lookup program on the device's threads, with the result named.

  The program: the TensorCore reshapes the scalar index `x` into a one-element array, starts SparseCore 0's
  sequencer and waits for it. The sequencer copies the one-element array into its scalar memory (a copy it waits
  for on its first DMA semaphore), loads the word `i`, and copies row `i` of the table — a 1 × 128 slice at row
  offset `i`, column offset 0 — into the result array (a copy it waits for on its second DMA semaphore).
  Nothing is accessed while a copy on it is pending, so no schedule matters: each wait returns the destination
  written with what the source held when the copy was issued.

  Shown here, for every float instance: every weakly fair execution of all the threads ends, nothing faults,
  `x` and the table end as they began, and the result array ends as the 1 × 128 slice of the table at row `i`,
  where `i` is the word the reshape put in the one-element array. The side condition the slice needs (row `i`
  lies inside the table) is a hypothesis here; the claims supply it from the precondition.
-/
import proofs.«204511_g20134806684162_cont_8to1_856_13_alg».proof.Defs
import Idealize.ShloMosaic.Lib.SparseCore.Launch
import Idealize.ShloMosaic.Lib.StableHlo.Run
import Idealize.ShloMosaic.Lib.Pipeline.Kit
import Idealize.ShloMosaic.Lib.Tactic
import Idealize.ShloMosaic.Lib.ValueIdx
import proofs.«204511_g20134806684162_cont_8to1_856_13_alg».proof.Proof.Gen.Kernel
import proofs.«204511_g20134806684162_cont_8to1_856_13_alg».proof.Proof.Gen.Kernel.Skeleton

noncomputable section

namespace Cert.Proof.LookupBits

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the arrays -/

variable (m : (ℓ : Loc nD τ sig) → Buf (Elt F) ℓ) (ρ : Dev nD → PrngReg)

-- the kernel's memrefs, spelt as the body table passes them
local notation "idxW" => (Memref.whole Cert.Kernel.main_v0_scs : Memref Cert.Kernel.sig Kind.scScalar Space.hbm Cert.Kernel.S1 EltTy.i32)
local notation "tabW" => (Memref.whole Cert.Kernel.main_arg1_scs : Memref Cert.Kernel.sig Kind.scScalar Space.hbm Cert.Kernel.S1000000x128 EltTy.f32)
local notation "outW" => (Memref.whole Cert.Kernel.main_v1_scs : Memref Cert.Kernel.sig Kind.scScalar Space.hbm Cert.Kernel.S1x128 EltTy.f32)
local notation "scrW" => (Memref.whole Cert.Kernel.cc0_scratch0 : Memref Cert.Kernel.sig Kind.scScalar Space.smem Cert.Kernel.S1 EltTy.i32)

/-- The scalar index, the table, the one-element index array, the result: as the TensorCore names them. -/
abbrev xLoc (d : Dev nD) : Loc nD τ sig := (SparseCore.T d).loc main_arg0
abbrev tabLoc (d : Dev nD) : Loc nD τ sig := (SparseCore.T d).loc main_arg1
abbrev idxLoc (d : Dev nD) : Loc nD τ sig := (SparseCore.T d).loc main_v0
abbrev outLoc (d : Dev nD) : Loc nD τ sig := (SparseCore.T d).loc main_v1

abbrev x' : DevRef τ sig := Proc.devRef .tc (main_arg0 : Ref sig .tc)
abbrev tab' : DevRef τ sig := Proc.devRef .tc (main_arg1 : Ref sig .tc)
abbrev idx' : DevRef τ sig := Proc.devRef .tc (main_v0 : Ref sig .tc)
abbrev out' : DevRef τ sig := Proc.devRef .tc (main_v1 : Ref sig .tc)

/-- The reshape of the scalar index into the one-element array. -/
abbrev opRs : HloOp τ sig (Elt F) := StableHlo.reshape main_arg0 main_v0 rfl shapeCasts_S_S1

/-- The launch valuation, and the valuation after the reshape. -/
def V0 (d : Dev nD) : Valuation τ sig (Elt F) := fun b => m (d, b)
def V1 (d : Dev nD) : Valuation τ sig (Elt F) := (opRs (F := F)).result (V0 m d)

/-- The one-element index array as the reshape leaves it. -/
def idxVal (d : Dev nD) : Buf (Elt F) (idxLoc d) := V1 m d idx'

/-- The index word: the one element of that array. -/
def iw (d : Dev nD) : BitVec 32 := idxVal m d (ValueIdx.ix1 (0 : Fin 1))

/-- Row `v` of the table as the sequencer slices it: 1 × 128 at offsets (`v`, 0). -/
abbrev rowM (v : BitVec 32) (hv : k0_chk1 v) : Memref sig .scScalar .hbm S1x128 .f32 :=
  (tabW).slice (Rect.unit (s := S1000000x128) (k0_off1 v) S1x128.size (k0_off1_inb v hv)) (fun _ => rfl)

variable (hk : ∀ d, k0_chk1 (iw m d))

/-- What the result array ends as: the table read through the row slice at the index word. -/
def outVal (d : Dev nD) : Buf (Elt F) (outLoc d) := (rowM (iw m d) (hk d)).view.read (Elt F) (m (tabLoc d))

variable [FloatOps F]

abbrev xPts (d : Dev nD) : sProp 𝕄 := xLoc d ↦{fullShare} m (xLoc d)
abbrev tabPts (d : Dev nD) : sProp 𝕄 := tabLoc d ↦{fullShare} m (tabLoc d)
abbrev idxPts (d : Dev nD) : sProp 𝕄 := idxLoc d ↦{fullShare} idxVal m d
abbrev outPts (d : Dev nD) (f : Buf (Elt F) (outLoc d)) : sProp 𝕄 := outLoc d ↦{fullShare} f

/-- What the call hands the one SparseCore of its grid, and what it takes back. -/
def stRes (d : Dev nD) : sProp 𝕄 := iprop(idxPts m d ∗ tabPts m d ∗ ∃ f, outPts d f)
def dnRes (d : Dev nD) : sProp 𝕄 := iprop(idxPts m d ∗ tabPts m d ∗ outPts d (outVal m hk d))

instance stRes_storable (d : Dev nD) : BI.Storable (upEmb : UEmb _ 𝕄) (stRes m d) := by
  unfold stRes; infer_instance
instance dnRes_storable (d : Dev nD) : BI.Storable (upEmb : UEmb _ 𝕄) (dnRes m hk d) := by
  unfold dnRes; infer_instance

def P : (K (F := F)).Pay (nD := nD) (Val := Elt F) (Name := ℕ) (U := UU) where
  st := fun _ d _ => stRes m d
  dn := fun _ d _ => dnRes m hk d
  go := fun _ _ _ _ => iprop(emp)
  td := fun _ _ _ _ => iprop(emp)
  x := fun _ _ => iprop(emp)

instance P_storable : (P (F := F) m hk).IsStorable where
  st _ d c := by unfold P; infer_instance
  dn _ d c := by unfold P; infer_instance
  go _ _ _ _ := by unfold P; infer_instance
  td _ _ _ _ := by unfold P; infer_instance

/-! ## The kernel's body on the sequencer -/

section Body

variable (d : Dev nD)

def coordsS (c : Fin (grid0.bound 0)) : grid0.Coords := fun | 0 => c | ⟨_ + 1, h⟩ => absurd h (Nat.not_lt.2 (Nat.le_add_left _ _))

abbrev cellA (c : Fin τ.nSC) : GSem nD τ sig := (S d c, .dma cc0_scoped0.sem)
abbrev cellB (c : Fin τ.nSC) : GSem nD τ sig := (S d c, .dma cc0_scoped1.sem)

omit [FloatOps F] in
/-- The sequencer's two DMA semaphores are among its own: their two counters and the rest. -/
theorem ownSems0_S (c : Fin τ.nSC) :
    (ownSems0 (S d c) : sProp 𝕄)
      = iprop(semVal (cellA d c) 0 ∗ semVal (cellB d c) 0
          ∗ bigSep (((ownCells (S d c)).erase (cellA d c)).erase (cellB d c)) fun g => semVal g 0) := by
  unfold SparseCore.Cfg.ownSems0
  rw [SparseCore.bigSep_erase' ((mem_ownCells (g := cellA d c)).mpr ⟨rfl, by
      show (SemLoc.dma cc0_scoped0.sem : SemLoc sig).isScoped .scScalar = true; decide⟩),
    SparseCore.bigSep_erase' (Finset.mem_erase.mpr ⟨by simp [cellA, cellB]; decide, (mem_ownCells (g := cellB d c)).mpr ⟨rfl, by
      show (SemLoc.dma cc0_scoped1.sem : SemLoc sig).isScoped .scScalar = true; decide⟩⟩)]

omit [FloatOps F] in
/-- The scalar-memory scratch is among the sequencer's own buffers: it, at some contents, and the rest. -/
theorem ownBufs_S (c : Fin τ.nSC) :
    (ownBufs (S d c) : sProp 𝕄)
      = iprop((∃ f, (S d c).loc cc0_scratch0 ↦{fullShare} f)
          ∗ bigSep ((ownRefs (τ := τ) (.scScalar c)).erase ((Proc.scScalar c).devRef cc0_scratch0))
              fun b => iprop(∃ f, ((d, b) : Loc nD τ sig) ↦{fullShare} f)) := by
  unfold SparseCore.Cfg.ownBufs
  exact SparseCore.bigSep_erase' (SparseCore.Cfg.mem_ownRefs_of_owner rfl)

omit [FloatOps F] in
/-- The arrays as the sequencer's memrefs address them are the TensorCore's arrays. -/
theorem pts_idx (c : Fin τ.nSC) (f : Buf (Elt F) (idxLoc d)) :
    ((idxW).view.loc (S d c) ↦{fullShare} f : sProp 𝕄) = idxLoc d ↦{fullShare} f := by
  simp only [Memref.view_whole, View.set_whole]
omit [FloatOps F] in
theorem pts_tab (c : Fin τ.nSC) (f : Buf (Elt F) (tabLoc d)) :
    ((tabW).view.loc (S d c) ↦{fullShare} f : sProp 𝕄) = tabLoc d ↦{fullShare} f := by
  simp only [Memref.view_whole, View.set_whole]
omit [FloatOps F] in
theorem pts_out (c : Fin τ.nSC) (f : Buf (Elt F) (outLoc d)) :
    ((outW).view.loc (S d c) ↦{fullShare} f : sProp 𝕄) = outLoc d ↦{fullShare} f := by
  simp only [Memref.view_whole, View.set_whole]
omit [FloatOps F] in
theorem pts_scr (c : Fin τ.nSC) (f : Buf (Elt F) ((S d c).loc cc0_scratch0)) :
    ((scrW).view.loc (S d c) ↦{fullShare} f : sProp 𝕄) = (S d c).loc cc0_scratch0 ↦{fullShare} f := by
  simp only [Memref.view_whole, View.set_whole]

/-- SparseCore 0's sequencer thread. -/
abbrev S0 (h : 0 < grid0.bound 0) : Thread nD τ := S d ((⟨0, h⟩ : Fin (grid0.bound 0)).castLE hcore0)

theorem body₀ (h : 0 < grid0.bound 0) (O : CellTallies nD τ sig (HIx 1)) (W : Waits sig (HIx 1)) (hO : ∀ g, O g none = 0) :
    iprop(levAts (K (F := F)).L (K (F := F)).lev ∗ emp ∗ stRes m d
        ∗ scopedBufs (S0 d h) ∗ scopedSems0 (S0 d h) ∗ owes (S0 d h) O W)
      ⊢ wp frame (wpE (defs₀ (F := F)) 𝒱₀ (S0 d h) none) Set.univ
          (cc0__lookup_body (coordsS ⟨0, h⟩) idxW (Memref.isWhole_whole _) tabW (Memref.isWhole_whole _) outW (Memref.isWhole_whole _)
            scrW (Memref.isWhole_whole _) cc0_scoped0 cc0_scoped1)
          fun _ => iprop(dnRes m hk d ∗ scopedBufs (S0 d h) ∗ scopedSems0 (S0 d h) ∗ ∃ W', ⌜∀ p ∈ W', p ∈ W ∨ p.2 = none⌝ ∗ owes (S0 d h) O W') := by
  simp only [cc0__lookup_body_eq_skeleton]; unfold cc0__lookup_body_skel
  unfold stRes
  iintro ⟨#Hlv, -, ⟨Hidx, Htab, %fo, Hout⟩, Hsb, Hss, HO⟩
  ihave Hss' := (SparseCore.Cfg.scopedSems0_S_elim (Val := Elt F) d (((⟨0, h⟩ : Fin (grid0.bound 0))).castLE hcore0)) $$ Hss
  icases Hss' with ⟨Hown, Hsubs⟩
  ihave Hown' := (Entails.of_eq (ownSems0_S (F := F) d (((⟨0, h⟩ : Fin (grid0.bound 0))).castLE hcore0))) $$ Hown
  icases Hown' with ⟨HsemA, HsemB, Hrest⟩
  ihave Hsb' := ((K (F := F)).scopedBufs_S_elim (facts (F := F)) d (((⟨0, h⟩ : Fin (grid0.bound 0))).castLE hcore0)) $$ Hsb
  icases Hsb' with ⟨Hbufs, Hsubb⟩
  ihave Hbufs' := (Entails.of_eq (ownBufs_S (F := F) d (((⟨0, h⟩ : Fin (grid0.bound 0))).castLE hcore0))) $$ Hbufs
  icases Hbufs' with ⟨⟨%fs, Hscr⟩, Hbrest⟩
  ihave Hmw := ((K (F := F)).mayWaits_none (thr := S0 d h) hO) $$ Hlv
  ihave Hidx' := (Entails.of_eq (pts_idx (F := F) d (((⟨0, h⟩ : Fin (grid0.bound 0))).castLE hcore0) _).symm) $$ Hidx
  ihave Htab' := (Entails.of_eq (pts_tab (F := F) d (((⟨0, h⟩ : Fin (grid0.bound 0))).castLE hcore0) _).symm) $$ Htab
  ihave Hout' := (Entails.of_eq (pts_out (F := F) d (((⟨0, h⟩ : Fin (grid0.bound 0))).castLE hcore0) _).symm) $$ Hout
  ihave Hscr' := (Entails.of_eq (pts_scr (F := F) d (((⟨0, h⟩ : Fin (grid0.bound 0))).castLE hcore0) _).symm) $$ Hscr
  sl_exec
  -- the result array: written whole with the row slice's reading of the table
  have eout : View.write (Elt F) (outW).view fo (body₀.sl.dma1 m hk d h fs) Finset.univ = outVal m hk d :=
    (View.write_whole_univ _ _ _).trans rfl
  sl_step
  unfold dnRes
  isplitl [Hidx' Htab' Hout']
  · isplitl [Hidx']; · iapply (Entails.of_eq (pts_idx (F := F) d _ _)); iexact Hidx'
    isplitl [Htab']; · iapply (Entails.of_eq (pts_tab (F := F) d _ _)); iexact Htab'
    rw [← eout]
    iapply (Entails.of_eq (pts_out (F := F) d _ _)); iexact Hout'
  isplitl [Hscr' Hbrest Hsubb]
  · iapply ((K (F := F)).scopedBufs_S_intro (facts (F := F)) d _)
    isplitl [Hscr' Hbrest]
    · rw [ownBufs_S]
      isplitl [Hscr']
      · iexists _; iapply (Entails.of_eq (pts_scr (F := F) d _ _)); iexact Hscr'
      · iexact Hbrest
    · iexact Hsubb
  isplitl [HsemA HsemB Hrest Hsubs]
  · iapply (SparseCore.Cfg.scopedSems0_S_intro (Val := Elt F) d _)
    isplitl [HsemA HsemB Hrest]
    · rw [ownSems0_S]
      isplitl [HsemA]; · iexact HsemA
      isplitl [HsemB]; · iexact HsemB
      iexact Hrest
    · iexact Hsubs
  iexists (insert (SemLoc.dma cc0_scoped1.sem, (default : HIx 1)) (insert (SemLoc.dma cc0_scoped0.sem, (default : HIx 1)) W)); isplitr
  · ipureintro; intro p hp
    rcases Finset.mem_insert.mp hp with hp | hp
    · exact .inr (hp ▸ rfl)
    rcases Finset.mem_insert.mp hp with hp | hp
    · exact .inr (hp ▸ rfl)
    · exact .inl hp
  · iexact HO

end Body

/-! ## The launch theorem's obligation -/

theorem defs₀_scalar (c : Fin τ.nSC) :
    defs₀ (F := F) (.scScalar c) 0 ()
      = SparseCore.onCore hcore0 (fun c => cc0__lookup_body (coordsS c) idxW (Memref.isWhole_whole _) tabW (Memref.isWhole_whole _)
          outW (Memref.isWhole_whole _) scrW (Memref.isWhole_whole _) cc0_scoped0 cc0_scoped1) ⟨⟩ c := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The one scalar call: SparseCore 0's sequencer runs the body. -/
theorem scalarObl : (K (F := F)).ScalarObl (D (F := F)) 𝒱 (P m hk) v₀ 0 := by
  intro d c O W hO _ _
  simp only [show (P m hk).ox = fun _ _ => 0 from rfl, add_zero]
  change _ ⊢ wp _ _ _ (Pipeline.liftProg (defs₀ (F := F) (.scScalar ((K (F := F)).core 0 c)) 0 ())) _
  refine BI.Entails.trans ?_ (Pipeline.wp_liftProg (D (F := F)) (Pipeline.defs_kernel pcfgs defs₀) 𝒱₀ _ Set.univ none _ _)
  have hc : ((K (F := F)).core 0 c).val < grid0.bound 0 := c.isLt
  rw [defs₀_scalar]; simp only [SparseCore.onCore, hc, ↓reduceDIte]
  show iprop(_ ∗ _ ∗ stRes m d ∗ _) ⊢ wp _ _ _ _ (fun _ => iprop(dnRes m hk d ∗ _))
  match c with
  | ⟨0, h⟩ => exact (body₀ m hk d h O W hO).trans (wp_mono frame _ _ fun _ => obl_post)

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m hk).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

/-- The TensorCore's arrays, all unscoped. -/
abbrev S4 : Finset (DevRef τ sig) := {x', tab', idx', out'}

omit [FloatOps F] in
theorem held_S4 (d : Dev nD) (W : Valuation τ sig (Elt F)) :
    (held (T d) S4 W : sProp 𝕄)
      = iprop((xLoc d ↦{fullShare} W x') ∗ (tabLoc d ↦{fullShare} W tab') ∗ (idxLoc d ↦{fullShare} W idx') ∗ outLoc d ↦{fullShare} W out') := by
  unfold held S4
  rw [SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop((xLoc d ↦{fullShare} W main_arg0) ∗ (tabLoc d ↦{fullShare} W main_arg1) ∗ (idxLoc d ↦{fullShare} W main_v0) ∗ outLoc d ↦{fullShare} W main_v1) := by
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]

theorem unscoped_held (d : Dev nD) : (unscopedBufs d (fun b => m ((SparseCore.T d).loc b)) : sProp 𝕄) = held (T d) S4 (V0 m d) := by
  rw [unscopedBufs_eq, held_S4]; rfl

theorem V1_x (d : Dev nD) : V1 m d x' = m (xLoc d) := by
  unfold V1
  rw [(opRs (F := F)).result_of_not_mem _ (show x' ∉ ({idx'} : Finset (DevRef τ sig)) by decide)]; rfl
theorem V1_tab (d : Dev nD) : V1 m d tab' = m (tabLoc d) := by
  unfold V1
  rw [(opRs (F := F)).result_of_not_mem _ (show tab' ∉ ({idx'} : Finset (DevRef τ sig)) by decide)]; rfl
theorem V1_out (d : Dev nD) : V1 m d out' = m (outLoc d) := by
  unfold V1
  rw [(opRs (F := F)).result_of_not_mem _ (show out' ∉ ({idx'} : Finset (DevRef τ sig)) by decide)]; rfl

/-- The four arrays after the reshape: the one-element array at the index, the rest as launched. -/
theorem held_V1 (d : Dev nD) :
    (held (T d) S4 ((opRs (F := F)).result (V0 m d)) : sProp 𝕄)
      = iprop(xPts m d ∗ tabPts m d ∗ idxPts m d ∗ outPts d (m (outLoc d))) := by
  show held (SparseCore.T d) S4 (V1 m d) = _
  rw [held_S4, V1_x, V1_tab, V1_out]; rfl

theorem st0_eq (d : Dev nD) : (bigSep Finset.univ fun c : Fin ((K (F := F)).nCore 0) => (P m hk).st 0 d c) = stRes m d :=
  bigSep_univ_of_subsingleton (0 : Fin 1)
theorem dn0_eq (d : Dev nD) : (bigSep Finset.univ fun c : Fin ((K (F := F)).nCore 0) => (P m hk).dn 0 d c) = dnRes m hk d :=
  bigSep_univ_of_subsingleton (0 : Fin 1)

theorem hRs : (opRs (F := F)).bufs ⊆ S4 := show ({x', idx'} : Finset (DevRef τ sig)) ⊆ S4 by decide

/-- What @main leaves the claim: the index and the table as launched, the result at its value. -/
abbrev FIN (d : Dev nD) : sProp 𝕄 := iprop(xPts m d ∗ tabPts m d ∗ outPts d (outVal m hk d))

/-- @main on device `d`'s TensorCore: the reshape, then the call, from the one-element array, the table and the
    result array to the same with the result written. -/
theorem hmain (κ : GSem nD τ sig → ℕ) (d : Dev nD) :
    iprop((K (F := F)).ctx EH (P m hk) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m hk d) := by
  unfold SparseCore.Cfg.tcRes
  rw [unscoped_held]
  simp only [main, wp_bind, wp_pure]
  iintro ⟨#Hctx, Hst, ⟨Hb, Hheld, -, -⟩, -⟩
  iapply (wp_hlo_within 𝒱 (SparseCore.T d) none Set.univ (op := opRs) (S := S4) hRs (V := V0 m d)) $$ [Hb Hheld]
  · isplitl [Hb] <;> iassumption
  iintro ⟨Hb, Hheld⟩
  rw [wp_ret]; imodintro
  ihave Hh := (Entails.of_eq (held_V1 (F := F) m d)) $$ Hheld
  icases Hh with ⟨Hx, Htab, Hidx, Hout⟩
  iapply ((K (F := F)).wp_run (D (F := F)) 𝒱 (EH := EH) (P := P m hk) κ d 0) $$ [Hst Hidx Htab Hout Hx]
  isplitr; · iexact Hctx
  isplitl [Hst]; · iexact Hst
  isplitl [Hidx Htab Hout]
  · rw [st0_eq]; unfold stRes
    isplitl [Hidx]; · iexact Hidx
    isplitl [Htab]; · iexact Htab
    iexists _; iexact Hout
  iintro ⟨Hst, Hdn⟩
  ihave Hdn' := (Entails.of_eq (dn0_eq m hk d)) $$ Hdn
  unfold dnRes
  icases Hdn' with ⟨-, Htab, Hout⟩
  imodintro
  isplitl [Hst]; · iexact Hst
  isplitl [Hx]; · iexact Hx
  isplitl [Htab]; · iexact Htab
  iexact Hout

def fq (d : Dev nD) (s' : Phys nD τ sig (Elt F)) : Prop :=
  s'.mem.mem (outLoc d) = outVal m hk d ∧ s'.mem.mem (xLoc d) = m (xLoc d) ∧ s'.mem.mem (tabLoc d) = m (tabLoc d)

theorem hfin (d : Dev nD) (s' : Phys nD τ sig (Elt F)) : iprop(FIN m hk d ∗ SI s') ⊢ (⌜fq m hk d s'⌝ : sProp 𝕄) := by
  iintro ⟨⟨Hx, Htab, Hout⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := tabLoc d) (I := Finset.univ) (q := fullShare) (f := m (tabLoc d)))) $$ [HSI Htab]
  · isplitl [HSI] <;> iassumption
  icases H with ⟨%h2, HSI, -⟩
  ihave H := (SI_pointsTo_agree (st := s') (ℓ := outLoc d) (I := Finset.univ) (q := fullShare) (f := outVal m hk d)) $$ [HSI Hout]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

def QC : PUnit × MemSt nD τ sig (Elt F) → Prop := fun r => ∀ c : Dev nD,
  r.2.mem (outLoc c) = outVal m hk c ∧ r.2.mem (xLoc c) = m (xLoc c) ∧ r.2.mem (tabLoc c) = m (tabLoc c)

/-- Every weakly fair execution of all the threads ends, nothing faulting, with the result array at the row slice's
    reading of the table and the index and the table as launched. -/
theorem run_main [∀ e, Nonempty (Elt F e)] : θ_run (Cert.Kernel.defs (F := F)) (Cert.Kernel.threads (F := F)) ⟨m, fun _ => 0, ρ⟩ (QC m hk) :=
  SparseCore.Cfg.θ_run_sc (K := K (F := F)) (D := D (F := F)) (𝒱 := 𝒱) (EH := EH) (P := P m hk) facts v₀
    (fun q _ => match q with | 0 => scalarObl m hk)
    (fun q hq => match q with | 0 => nomatch hq)
    (fun q hq => match q with | 0 => nomatch hq)
    m ρ main (fun _ => iprop(emp)) (FIN m hk) (u₀ (F := F)) (sep_elim_left.trans (hu₀ m hk)) (hmain m ρ hk) (fq m hk) (hfin m hk) (QC m hk) (fun _ h => h)

end Cert.Proof.LookupBits

end
-- ==== Proof.LookupBitsWord.lean ====
/-
  The index word and the result array read at an index.

  The reshape of a scalar into a one-element array moves nothing, so the word the sequencer loads is the scalar
  index's one element. The row slice the sequencer copies starts at row offset that word and column offset 0 with unit
  strides, so the result array at `(0, c)` is the table at (that word, `c`). Row 777 satisfies the slice's side
  condition (777 + 1 ≤ 1000000).
-/
import proofs.«204511_g20134806684162_cont_8to1_856_13_alg».proof.Proof.LookupBits
import Idealize.ShloMosaic.Lib.ValueIdx

noncomputable section

namespace Cert.Proof.LookupBits

open Cert.Kernel Cert.Kernel.Gen
open Idealize.ShloMosaic Idealize.ShloMosaic.ValueIdx

variable {F : FTy → Type} (m : (ℓ : Loc nD τ sig) → Buf (Elt F) ℓ)

/-- The index word is the scalar index's one element: the reshape moves nothing. -/
theorem iw_eq (d : Dev nD) : iw m d = m (xLoc d) ix0 := by
  unfold iw idxVal V1
  rw [StableHlo.reshape_result]
  exact congrArg (m (xLoc d)) (eq_ix0 _)

/-- Row 777 lies inside the table. -/
theorem chk_777 : k0_chk1 (777#32 : BitVec 32) := by decide

/-- A row offset that passes the side condition is below the table's row count. -/
theorem lt_of_chk {v : BitVec 32} (h : k0_chk1 v) : v.toNat < 1000000 := by
  have h0 := h (0 : Fin 2)
  have e : k0_off1 v (0 : Fin 2) + S1x128.size (0 : Fin 2) = v.toNat + 1 := rfl
  have e' : S1000000x128.size (0 : Fin 2) = 1000000 := rfl
  omega

variable (hk : ∀ d, k0_chk1 (iw m d))

/-- The result array at `(0, c)`: the table at (index word, `c`) — the row slice starts at row offset the index word and
    column offset 0, with unit strides. -/
theorem outVal_apply (d : Dev nD) (c : Fin 128) :
    outVal m hk d (ix2 (0 : Fin 1) c) = m (tabLoc d) (ix2 (⟨(iw m d).toNat, lt_of_chk (hk d)⟩ : Fin 1000000) c) := by
  unfold outVal
  rw [View.read_apply]
  refine (cast_eq _ _).trans (congrArg (m (tabLoc d)) (funext fun a => Fin.ext ?_))
  match a with
  | ⟨0, _⟩ =>
    show k0_off1 (iw m d) (0 : Fin 2) + 1 * 0 = (iw m d).toNat
    simp [k0_off1]
  | ⟨1, _⟩ =>
    show k0_off1 (iw m d) (1 : Fin 2) + 1 * c.val = c.val
    simp [k0_off1]

end Cert.Proof.LookupBits

end
-- ==== Proof.LookupIdeal.lean ====
/-
  The run of the lookup program on the device's threads, with the result named.

  The program: the TensorCore reshapes the scalar index `x` into a one-element array, starts SparseCore 0's
  sequencer and waits for it. The sequencer copies the one-element array into its scalar memory (a copy it waits
  for on its first DMA semaphore), loads the word `i`, and copies row `i` of the table — a 1 × 128 slice at row
  offset `i`, column offset 0 — into the result array (a copy it waits for on its second DMA semaphore).
  Nothing is accessed while a copy on it is pending, so no schedule matters: each wait returns the destination
  written with what the source held when the copy was issued.

  Shown here, for every float instance: every weakly fair execution of all the threads ends, nothing faults,
  `x` and the table end as they began, and the result array ends as the 1 × 128 slice of the table at row `i`,
  where `i` is the word the reshape put in the one-element array. The side condition the slice needs (row `i`
  lies inside the table) is a hypothesis here; the claims supply it from the precondition.
-/
import proofs.«204511_g20134806684162_cont_8to1_856_13_alg».proof.Defs
import Idealize.ShloMosaic.Lib.SparseCore.Launch
import Idealize.ShloMosaic.Lib.StableHlo.Run
import Idealize.ShloMosaic.Lib.Pipeline.Kit
import Idealize.ShloMosaic.Lib.Tactic
import Idealize.ShloMosaic.Lib.ValueIdx
import proofs.«204511_g20134806684162_cont_8to1_856_13_alg».proof.Proof.Gen.KernelIdeal
import proofs.«204511_g20134806684162_cont_8to1_856_13_alg».proof.Proof.Gen.KernelIdeal.Skeleton

noncomputable section

namespace Cert.Proof.LookupIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the arrays -/

variable (m : (ℓ : Loc nD τ sig) → Buf (Elt F) ℓ) (ρ : Dev nD → PrngReg)

-- the kernel's memrefs, spelt as the body table passes them
local notation "idxW" => (Memref.whole Cert.KernelIdeal.main_v0_scs : Memref Cert.KernelIdeal.sig Kind.scScalar Space.hbm Cert.KernelIdeal.S1 EltTy.i32)
local notation "tabW" => (Memref.whole Cert.KernelIdeal.main_arg1_scs : Memref Cert.KernelIdeal.sig Kind.scScalar Space.hbm Cert.KernelIdeal.S1000000x128 EltTy.f32)
local notation "outW" => (Memref.whole Cert.KernelIdeal.main_v1_scs : Memref Cert.KernelIdeal.sig Kind.scScalar Space.hbm Cert.KernelIdeal.S1x128 EltTy.f32)
local notation "scrW" => (Memref.whole Cert.KernelIdeal.cc0_scratch0 : Memref Cert.KernelIdeal.sig Kind.scScalar Space.smem Cert.KernelIdeal.S1 EltTy.i32)

/-- The scalar index, the table, the one-element index array, the result: as the TensorCore names them. -/
abbrev xLoc (d : Dev nD) : Loc nD τ sig := (SparseCore.T d).loc main_arg0
abbrev tabLoc (d : Dev nD) : Loc nD τ sig := (SparseCore.T d).loc main_arg1
abbrev idxLoc (d : Dev nD) : Loc nD τ sig := (SparseCore.T d).loc main_v0
abbrev outLoc (d : Dev nD) : Loc nD τ sig := (SparseCore.T d).loc main_v1

abbrev x' : DevRef τ sig := Proc.devRef .tc (main_arg0 : Ref sig .tc)
abbrev tab' : DevRef τ sig := Proc.devRef .tc (main_arg1 : Ref sig .tc)
abbrev idx' : DevRef τ sig := Proc.devRef .tc (main_v0 : Ref sig .tc)
abbrev out' : DevRef τ sig := Proc.devRef .tc (main_v1 : Ref sig .tc)

/-- The reshape of the scalar index into the one-element array. -/
abbrev opRs : HloOp τ sig (Elt F) := StableHlo.reshape main_arg0 main_v0 rfl shapeCasts_S_S1

/-- The launch valuation, and the valuation after the reshape. -/
def V0 (d : Dev nD) : Valuation τ sig (Elt F) := fun b => m (d, b)
def V1 (d : Dev nD) : Valuation τ sig (Elt F) := (opRs (F := F)).result (V0 m d)

/-- The one-element index array as the reshape leaves it. -/
def idxVal (d : Dev nD) : Buf (Elt F) (idxLoc d) := V1 m d idx'

/-- The index word: the one element of that array. -/
def iw (d : Dev nD) : BitVec 32 := idxVal m d (ValueIdx.ix1 (0 : Fin 1))

/-- Row `v` of the table as the sequencer slices it: 1 × 128 at offsets (`v`, 0). -/
abbrev rowM (v : BitVec 32) (hv : k0_chk1 v) : Memref sig .scScalar .hbm S1x128 .f32 :=
  (tabW).slice (Rect.unit (s := S1000000x128) (k0_off1 v) S1x128.size (k0_off1_inb v hv)) (fun _ => rfl)

variable (hk : ∀ d, k0_chk1 (iw m d))

/-- What the result array ends as: the table read through the row slice at the index word. -/
def outVal (d : Dev nD) : Buf (Elt F) (outLoc d) := (rowM (iw m d) (hk d)).view.read (Elt F) (m (tabLoc d))

variable [FloatOps F]

abbrev xPts (d : Dev nD) : sProp 𝕄 := xLoc d ↦{fullShare} m (xLoc d)
abbrev tabPts (d : Dev nD) : sProp 𝕄 := tabLoc d ↦{fullShare} m (tabLoc d)
abbrev idxPts (d : Dev nD) : sProp 𝕄 := idxLoc d ↦{fullShare} idxVal m d
abbrev outPts (d : Dev nD) (f : Buf (Elt F) (outLoc d)) : sProp 𝕄 := outLoc d ↦{fullShare} f

/-- What the call hands the one SparseCore of its grid, and what it takes back. -/
def stRes (d : Dev nD) : sProp 𝕄 := iprop(idxPts m d ∗ tabPts m d ∗ ∃ f, outPts d f)
def dnRes (d : Dev nD) : sProp 𝕄 := iprop(idxPts m d ∗ tabPts m d ∗ outPts d (outVal m hk d))

instance stRes_storable (d : Dev nD) : BI.Storable (upEmb : UEmb _ 𝕄) (stRes m d) := by
  unfold stRes; infer_instance
instance dnRes_storable (d : Dev nD) : BI.Storable (upEmb : UEmb _ 𝕄) (dnRes m hk d) := by
  unfold dnRes; infer_instance

def P : (K (F := F)).Pay (nD := nD) (Val := Elt F) (Name := ℕ) (U := UU) where
  st := fun _ d _ => stRes m d
  dn := fun _ d _ => dnRes m hk d
  go := fun _ _ _ _ => iprop(emp)
  td := fun _ _ _ _ => iprop(emp)
  x := fun _ _ => iprop(emp)

instance P_storable : (P (F := F) m hk).IsStorable where
  st _ d c := by unfold P; infer_instance
  dn _ d c := by unfold P; infer_instance
  go _ _ _ _ := by unfold P; infer_instance
  td _ _ _ _ := by unfold P; infer_instance

/-! ## The kernel's body on the sequencer -/

section Body

variable (d : Dev nD)

def coordsS (c : Fin (grid0.bound 0)) : grid0.Coords := fun | 0 => c | ⟨_ + 1, h⟩ => absurd h (Nat.not_lt.2 (Nat.le_add_left _ _))

abbrev cellA (c : Fin τ.nSC) : GSem nD τ sig := (S d c, .dma cc0_scoped0.sem)
abbrev cellB (c : Fin τ.nSC) : GSem nD τ sig := (S d c, .dma cc0_scoped1.sem)

omit [FloatOps F] in
/-- The sequencer's two DMA semaphores are among its own: their two counters and the rest. -/
theorem ownSems0_S (c : Fin τ.nSC) :
    (ownSems0 (S d c) : sProp 𝕄)
      = iprop(semVal (cellA d c) 0 ∗ semVal (cellB d c) 0
          ∗ bigSep (((ownCells (S d c)).erase (cellA d c)).erase (cellB d c)) fun g => semVal g 0) := by
  unfold SparseCore.Cfg.ownSems0
  rw [SparseCore.bigSep_erase' ((mem_ownCells (g := cellA d c)).mpr ⟨rfl, by
      show (SemLoc.dma cc0_scoped0.sem : SemLoc sig).isScoped .scScalar = true; decide⟩),
    SparseCore.bigSep_erase' (Finset.mem_erase.mpr ⟨by simp [cellA, cellB]; decide, (mem_ownCells (g := cellB d c)).mpr ⟨rfl, by
      show (SemLoc.dma cc0_scoped1.sem : SemLoc sig).isScoped .scScalar = true; decide⟩⟩)]

omit [FloatOps F] in
/-- The scalar-memory scratch is among the sequencer's own buffers: it, at some contents, and the rest. -/
theorem ownBufs_S (c : Fin τ.nSC) :
    (ownBufs (S d c) : sProp 𝕄)
      = iprop((∃ f, (S d c).loc cc0_scratch0 ↦{fullShare} f)
          ∗ bigSep ((ownRefs (τ := τ) (.scScalar c)).erase ((Proc.scScalar c).devRef cc0_scratch0))
              fun b => iprop(∃ f, ((d, b) : Loc nD τ sig) ↦{fullShare} f)) := by
  unfold SparseCore.Cfg.ownBufs
  exact SparseCore.bigSep_erase' (SparseCore.Cfg.mem_ownRefs_of_owner rfl)

omit [FloatOps F] in
/-- The arrays as the sequencer's memrefs address them are the TensorCore's arrays. -/
theorem pts_idx (c : Fin τ.nSC) (f : Buf (Elt F) (idxLoc d)) :
    ((idxW).view.loc (S d c) ↦{fullShare} f : sProp 𝕄) = idxLoc d ↦{fullShare} f := by
  simp only [Memref.view_whole, View.set_whole]
omit [FloatOps F] in
theorem pts_tab (c : Fin τ.nSC) (f : Buf (Elt F) (tabLoc d)) :
    ((tabW).view.loc (S d c) ↦{fullShare} f : sProp 𝕄) = tabLoc d ↦{fullShare} f := by
  simp only [Memref.view_whole, View.set_whole]
omit [FloatOps F] in
theorem pts_out (c : Fin τ.nSC) (f : Buf (Elt F) (outLoc d)) :
    ((outW).view.loc (S d c) ↦{fullShare} f : sProp 𝕄) = outLoc d ↦{fullShare} f := by
  simp only [Memref.view_whole, View.set_whole]
omit [FloatOps F] in
theorem pts_scr (c : Fin τ.nSC) (f : Buf (Elt F) ((S d c).loc cc0_scratch0)) :
    ((scrW).view.loc (S d c) ↦{fullShare} f : sProp 𝕄) = (S d c).loc cc0_scratch0 ↦{fullShare} f := by
  simp only [Memref.view_whole, View.set_whole]

/-- SparseCore 0's sequencer thread. -/
abbrev S0 (h : 0 < grid0.bound 0) : Thread nD τ := S d ((⟨0, h⟩ : Fin (grid0.bound 0)).castLE hcore0)

theorem body₀ (h : 0 < grid0.bound 0) (O : CellTallies nD τ sig (HIx 1)) (W : Waits sig (HIx 1)) (hO : ∀ g, O g none = 0) :
    iprop(levAts (K (F := F)).L (K (F := F)).lev ∗ emp ∗ stRes m d
        ∗ scopedBufs (S0 d h) ∗ scopedSems0 (S0 d h) ∗ owes (S0 d h) O W)
      ⊢ wp frame (wpE (defs₀ (F := F)) 𝒱₀ (S0 d h) none) Set.univ
          (cc0__lookup_body (coordsS ⟨0, h⟩) idxW (Memref.isWhole_whole _) tabW (Memref.isWhole_whole _) outW (Memref.isWhole_whole _)
            scrW (Memref.isWhole_whole _) cc0_scoped0 cc0_scoped1)
          fun _ => iprop(dnRes m hk d ∗ scopedBufs (S0 d h) ∗ scopedSems0 (S0 d h) ∗ ∃ W', ⌜∀ p ∈ W', p ∈ W ∨ p.2 = none⌝ ∗ owes (S0 d h) O W') := by
  simp only [cc0__lookup_body_eq_skeleton]; unfold cc0__lookup_body_skel
  unfold stRes
  iintro ⟨#Hlv, -, ⟨Hidx, Htab, %fo, Hout⟩, Hsb, Hss, HO⟩
  ihave Hss' := (SparseCore.Cfg.scopedSems0_S_elim (Val := Elt F) d (((⟨0, h⟩ : Fin (grid0.bound 0))).castLE hcore0)) $$ Hss
  icases Hss' with ⟨Hown, Hsubs⟩
  ihave Hown' := (Entails.of_eq (ownSems0_S (F := F) d (((⟨0, h⟩ : Fin (grid0.bound 0))).castLE hcore0))) $$ Hown
  icases Hown' with ⟨HsemA, HsemB, Hrest⟩
  ihave Hsb' := ((K (F := F)).scopedBufs_S_elim (facts (F := F)) d (((⟨0, h⟩ : Fin (grid0.bound 0))).castLE hcore0)) $$ Hsb
  icases Hsb' with ⟨Hbufs, Hsubb⟩
  ihave Hbufs' := (Entails.of_eq (ownBufs_S (F := F) d (((⟨0, h⟩ : Fin (grid0.bound 0))).castLE hcore0))) $$ Hbufs
  icases Hbufs' with ⟨⟨%fs, Hscr⟩, Hbrest⟩
  ihave Hmw := ((K (F := F)).mayWaits_none (thr := S0 d h) hO) $$ Hlv
  ihave Hidx' := (Entails.of_eq (pts_idx (F := F) d (((⟨0, h⟩ : Fin (grid0.bound 0))).castLE hcore0) _).symm) $$ Hidx
  ihave Htab' := (Entails.of_eq (pts_tab (F := F) d (((⟨0, h⟩ : Fin (grid0.bound 0))).castLE hcore0) _).symm) $$ Htab
  ihave Hout' := (Entails.of_eq (pts_out (F := F) d (((⟨0, h⟩ : Fin (grid0.bound 0))).castLE hcore0) _).symm) $$ Hout
  ihave Hscr' := (Entails.of_eq (pts_scr (F := F) d (((⟨0, h⟩ : Fin (grid0.bound 0))).castLE hcore0) _).symm) $$ Hscr
  sl_exec
  -- the result array: written whole with the row slice's reading of the table
  have eout : View.write (Elt F) (outW).view fo (body₀.sl.dma1 m hk d h fs) Finset.univ = outVal m hk d :=
    (View.write_whole_univ _ _ _).trans rfl
  sl_step
  unfold dnRes
  isplitl [Hidx' Htab' Hout']
  · isplitl [Hidx']; · iapply (Entails.of_eq (pts_idx (F := F) d _ _)); iexact Hidx'
    isplitl [Htab']; · iapply (Entails.of_eq (pts_tab (F := F) d _ _)); iexact Htab'
    rw [← eout]
    iapply (Entails.of_eq (pts_out (F := F) d _ _)); iexact Hout'
  isplitl [Hscr' Hbrest Hsubb]
  · iapply ((K (F := F)).scopedBufs_S_intro (facts (F := F)) d _)
    isplitl [Hscr' Hbrest]
    · rw [ownBufs_S]
      isplitl [Hscr']
      · iexists _; iapply (Entails.of_eq (pts_scr (F := F) d _ _)); iexact Hscr'
      · iexact Hbrest
    · iexact Hsubb
  isplitl [HsemA HsemB Hrest Hsubs]
  · iapply (SparseCore.Cfg.scopedSems0_S_intro (Val := Elt F) d _)
    isplitl [HsemA HsemB Hrest]
    · rw [ownSems0_S]
      isplitl [HsemA]; · iexact HsemA
      isplitl [HsemB]; · iexact HsemB
      iexact Hrest
    · iexact Hsubs
  iexists (insert (SemLoc.dma cc0_scoped1.sem, (default : HIx 1)) (insert (SemLoc.dma cc0_scoped0.sem, (default : HIx 1)) W)); isplitr
  · ipureintro; intro p hp
    rcases Finset.mem_insert.mp hp with hp | hp
    · exact .inr (hp ▸ rfl)
    rcases Finset.mem_insert.mp hp with hp | hp
    · exact .inr (hp ▸ rfl)
    · exact .inl hp
  · iexact HO

end Body

/-! ## The launch theorem's obligation -/

theorem defs₀_scalar (c : Fin τ.nSC) :
    defs₀ (F := F) (.scScalar c) 0 ()
      = SparseCore.onCore hcore0 (fun c => cc0__lookup_body (coordsS c) idxW (Memref.isWhole_whole _) tabW (Memref.isWhole_whole _)
          outW (Memref.isWhole_whole _) scrW (Memref.isWhole_whole _) cc0_scoped0 cc0_scoped1) ⟨⟩ c := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The one scalar call: SparseCore 0's sequencer runs the body. -/
theorem scalarObl : (K (F := F)).ScalarObl (D (F := F)) 𝒱 (P m hk) v₀ 0 := by
  intro d c O W hO _ _
  simp only [show (P m hk).ox = fun _ _ => 0 from rfl, add_zero]
  change _ ⊢ wp _ _ _ (Pipeline.liftProg (defs₀ (F := F) (.scScalar ((K (F := F)).core 0 c)) 0 ())) _
  refine BI.Entails.trans ?_ (Pipeline.wp_liftProg (D (F := F)) (Pipeline.defs_kernel pcfgs defs₀) 𝒱₀ _ Set.univ none _ _)
  have hc : ((K (F := F)).core 0 c).val < grid0.bound 0 := c.isLt
  rw [defs₀_scalar]; simp only [SparseCore.onCore, hc, ↓reduceDIte]
  show iprop(_ ∗ _ ∗ stRes m d ∗ _) ⊢ wp _ _ _ _ (fun _ => iprop(dnRes m hk d ∗ _))
  match c with
  | ⟨0, h⟩ => exact (body₀ m hk d h O W hO).trans (wp_mono frame _ _ fun _ => obl_post)

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m hk).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

/-- The TensorCore's arrays, all unscoped. -/
abbrev S4 : Finset (DevRef τ sig) := {x', tab', idx', out'}

omit [FloatOps F] in
theorem held_S4 (d : Dev nD) (W : Valuation τ sig (Elt F)) :
    (held (T d) S4 W : sProp 𝕄)
      = iprop((xLoc d ↦{fullShare} W x') ∗ (tabLoc d ↦{fullShare} W tab') ∗ (idxLoc d ↦{fullShare} W idx') ∗ outLoc d ↦{fullShare} W out') := by
  unfold held S4
  rw [SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop((xLoc d ↦{fullShare} W main_arg0) ∗ (tabLoc d ↦{fullShare} W main_arg1) ∗ (idxLoc d ↦{fullShare} W main_v0) ∗ outLoc d ↦{fullShare} W main_v1) := by
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]

theorem unscoped_held (d : Dev nD) : (unscopedBufs d (fun b => m ((SparseCore.T d).loc b)) : sProp 𝕄) = held (T d) S4 (V0 m d) := by
  rw [unscopedBufs_eq, held_S4]; rfl

theorem V1_x (d : Dev nD) : V1 m d x' = m (xLoc d) := by
  unfold V1
  rw [(opRs (F := F)).result_of_not_mem _ (show x' ∉ ({idx'} : Finset (DevRef τ sig)) by decide)]; rfl
theorem V1_tab (d : Dev nD) : V1 m d tab' = m (tabLoc d) := by
  unfold V1
  rw [(opRs (F := F)).result_of_not_mem _ (show tab' ∉ ({idx'} : Finset (DevRef τ sig)) by decide)]; rfl
theorem V1_out (d : Dev nD) : V1 m d out' = m (outLoc d) := by
  unfold V1
  rw [(opRs (F := F)).result_of_not_mem _ (show out' ∉ ({idx'} : Finset (DevRef τ sig)) by decide)]; rfl

/-- The four arrays after the reshape: the one-element array at the index, the rest as launched. -/
theorem held_V1 (d : Dev nD) :
    (held (T d) S4 ((opRs (F := F)).result (V0 m d)) : sProp 𝕄)
      = iprop(xPts m d ∗ tabPts m d ∗ idxPts m d ∗ outPts d (m (outLoc d))) := by
  show held (SparseCore.T d) S4 (V1 m d) = _
  rw [held_S4, V1_x, V1_tab, V1_out]; rfl

theorem st0_eq (d : Dev nD) : (bigSep Finset.univ fun c : Fin ((K (F := F)).nCore 0) => (P m hk).st 0 d c) = stRes m d :=
  bigSep_univ_of_subsingleton (0 : Fin 1)
theorem dn0_eq (d : Dev nD) : (bigSep Finset.univ fun c : Fin ((K (F := F)).nCore 0) => (P m hk).dn 0 d c) = dnRes m hk d :=
  bigSep_univ_of_subsingleton (0 : Fin 1)

theorem hRs : (opRs (F := F)).bufs ⊆ S4 := show ({x', idx'} : Finset (DevRef τ sig)) ⊆ S4 by decide

/-- What @main leaves the claim: the index and the table as launched, the result at its value. -/
abbrev FIN (d : Dev nD) : sProp 𝕄 := iprop(xPts m d ∗ tabPts m d ∗ outPts d (outVal m hk d))

/-- @main on device `d`'s TensorCore: the reshape, then the call, from the one-element array, the table and the
    result array to the same with the result written. -/
theorem hmain (κ : GSem nD τ sig → ℕ) (d : Dev nD) :
    iprop((K (F := F)).ctx EH (P m hk) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m hk d) := by
  unfold SparseCore.Cfg.tcRes
  rw [unscoped_held]
  simp only [main, wp_bind, wp_pure]
  iintro ⟨#Hctx, Hst, ⟨Hb, Hheld, -, -⟩, -⟩
  iapply (wp_hlo_within 𝒱 (SparseCore.T d) none Set.univ (op := opRs) (S := S4) hRs (V := V0 m d)) $$ [Hb Hheld]
  · isplitl [Hb] <;> iassumption
  iintro ⟨Hb, Hheld⟩
  rw [wp_ret]; imodintro
  ihave Hh := (Entails.of_eq (held_V1 (F := F) m d)) $$ Hheld
  icases Hh with ⟨Hx, Htab, Hidx, Hout⟩
  iapply ((K (F := F)).wp_run (D (F := F)) 𝒱 (EH := EH) (P := P m hk) κ d 0) $$ [Hst Hidx Htab Hout Hx]
  isplitr; · iexact Hctx
  isplitl [Hst]; · iexact Hst
  isplitl [Hidx Htab Hout]
  · rw [st0_eq]; unfold stRes
    isplitl [Hidx]; · iexact Hidx
    isplitl [Htab]; · iexact Htab
    iexists _; iexact Hout
  iintro ⟨Hst, Hdn⟩
  ihave Hdn' := (Entails.of_eq (dn0_eq m hk d)) $$ Hdn
  unfold dnRes
  icases Hdn' with ⟨-, Htab, Hout⟩
  imodintro
  isplitl [Hst]; · iexact Hst
  isplitl [Hx]; · iexact Hx
  isplitl [Htab]; · iexact Htab
  iexact Hout

def fq (d : Dev nD) (s' : Phys nD τ sig (Elt F)) : Prop :=
  s'.mem.mem (outLoc d) = outVal m hk d ∧ s'.mem.mem (xLoc d) = m (xLoc d) ∧ s'.mem.mem (tabLoc d) = m (tabLoc d)

theorem hfin (d : Dev nD) (s' : Phys nD τ sig (Elt F)) : iprop(FIN m hk d ∗ SI s') ⊢ (⌜fq m hk d s'⌝ : sProp 𝕄) := by
  iintro ⟨⟨Hx, Htab, Hout⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := tabLoc d) (I := Finset.univ) (q := fullShare) (f := m (tabLoc d)))) $$ [HSI Htab]
  · isplitl [HSI] <;> iassumption
  icases H with ⟨%h2, HSI, -⟩
  ihave H := (SI_pointsTo_agree (st := s') (ℓ := outLoc d) (I := Finset.univ) (q := fullShare) (f := outVal m hk d)) $$ [HSI Hout]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

def QC : PUnit × MemSt nD τ sig (Elt F) → Prop := fun r => ∀ c : Dev nD,
  r.2.mem (outLoc c) = outVal m hk c ∧ r.2.mem (xLoc c) = m (xLoc c) ∧ r.2.mem (tabLoc c) = m (tabLoc c)

/-- Every weakly fair execution of all the threads ends, nothing faulting, with the result array at the row slice's
    reading of the table and the index and the table as launched. -/
theorem run_main [∀ e, Nonempty (Elt F e)] : θ_run (Cert.KernelIdeal.defs (F := F)) (Cert.KernelIdeal.threads (F := F)) ⟨m, fun _ => 0, ρ⟩ (QC m hk) :=
  SparseCore.Cfg.θ_run_sc (K := K (F := F)) (D := D (F := F)) (𝒱 := 𝒱) (EH := EH) (P := P m hk) facts v₀
    (fun q _ => match q with | 0 => scalarObl m hk)
    (fun q hq => match q with | 0 => nomatch hq)
    (fun q hq => match q with | 0 => nomatch hq)
    m ρ main (fun _ => iprop(emp)) (FIN m hk) (u₀ (F := F)) (sep_elim_left.trans (hu₀ m hk)) (hmain m ρ hk) (fq m hk) (hfin m hk) (QC m hk) (fun _ h => h)

end Cert.Proof.LookupIdeal

end
-- ==== Proof.LookupIdealWord.lean ====
/-
  The index word and the result array read at an index.

  The reshape of a scalar into a one-element array moves nothing, so the word the sequencer loads is the scalar
  index's one element. The row slice the sequencer copies starts at row offset that word and column offset 0 with unit
  strides, so the result array at `(0, c)` is the table at (that word, `c`). Row 777 satisfies the slice's side
  condition (777 + 1 ≤ 1000000).
-/
import proofs.«204511_g20134806684162_cont_8to1_856_13_alg».proof.Proof.LookupIdeal
import Idealize.ShloMosaic.Lib.ValueIdx

noncomputable section

namespace Cert.Proof.LookupIdeal

open Cert.KernelIdeal Cert.KernelIdeal.Gen
open Idealize.ShloMosaic Idealize.ShloMosaic.ValueIdx

variable {F : FTy → Type} (m : (ℓ : Loc nD τ sig) → Buf (Elt F) ℓ)

/-- The index word is the scalar index's one element: the reshape moves nothing. -/
theorem iw_eq (d : Dev nD) : iw m d = m (xLoc d) ix0 := by
  unfold iw idxVal V1
  rw [StableHlo.reshape_result]
  exact congrArg (m (xLoc d)) (eq_ix0 _)

/-- Row 777 lies inside the table. -/
theorem chk_777 : k0_chk1 (777#32 : BitVec 32) := by decide

/-- A row offset that passes the side condition is below the table's row count. -/
theorem lt_of_chk {v : BitVec 32} (h : k0_chk1 v) : v.toNat < 1000000 := by
  have h0 := h (0 : Fin 2)
  have e : k0_off1 v (0 : Fin 2) + S1x128.size (0 : Fin 2) = v.toNat + 1 := rfl
  have e' : S1000000x128.size (0 : Fin 2) = 1000000 := rfl
  omega

variable (hk : ∀ d, k0_chk1 (iw m d))

/-- The result array at `(0, c)`: the table at (index word, `c`) — the row slice starts at row offset the index word and
    column offset 0, with unit strides. -/
theorem outVal_apply (d : Dev nD) (c : Fin 128) :
    outVal m hk d (ix2 (0 : Fin 1) c) = m (tabLoc d) (ix2 (⟨(iw m d).toNat, lt_of_chk (hk d)⟩ : Fin 1000000) c) := by
  unfold outVal
  rw [View.read_apply]
  refine (cast_eq _ _).trans (congrArg (m (tabLoc d)) (funext fun a => Fin.ext ?_))
  match a with
  | ⟨0, _⟩ =>
    show k0_off1 (iw m d) (0 : Fin 2) + 1 * 0 = (iw m d).toNat
    simp [k0_off1]
  | ⟨1, _⟩ =>
    show k0_off1 (iw m d) (1 : Fin 2) + 1 * c.val = c.val
    simp [k0_off1]

end Cert.Proof.LookupIdeal

end
-- ==== Proof.RefRun.lean ====
/-
  The reference program's run, read back as one pure term.

  The reference reshapes the scalar index `x` to a 1 × 1 array and takes row `x` of the table the way `jnp.take`
  does: a negative index is wrapped by adding the number of rows, the wrapped index is tested for lying in
  `[0, 999999]`, the row is gathered (the start index clamped into range), and where the test fails the row is
  replaced by a fill value; the 1 × 1 × 128 result is reshaped to 1 × 128. Its @main is a straight line of 24 host
  operations (the two outlined functions' bodies read at their call sites), so every weakly fair execution ends
  with the result buffer at those operations' composed term of the two arguments, the arguments unchanged.
-/
import proofs.«204511_g20134806684162_cont_8to1_856_13_alg».proof.ReferenceIdeal
import proofs.«204511_g20134806684162_cont_8to1_856_13_alg».proof.Proof.Gen.ReferenceIdeal
import Idealize.ShloMosaic.Lib.StableHlo.Run

noncomputable section

namespace Cert.Proof.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 24 operations, in order, the callees' at their call sites. -/
abbrev ops : List (HloOp τ sig (Elt F)) :=
  [ reshape main_arg0 main_v0 rfl shapeCasts_S_S1x1,
    TRef.nullary main_call0.c (constantI S_ 32 0#32),
    TRef.unary main_call0.c main_call0.v0 (broadcastInDim S1x1 ![] bcast_S_S1x1),
    TRef.binary (.of main_v0) main_call0.v0 main_call0.v1 (cmpi .slt),
    TRef.nullary main_call0.c_0 (constantI S_ 32 1000000#32),
    TRef.unary main_call0.c_0 main_call0.v2 (broadcastInDim S1x1 ![] bcast_S_S1x1),
    TRef.binary (.of main_v0) main_call0.v2 main_call0.v3 addi,
    TRef.ternary main_call0.v1 main_call0.v3 (.of main_v0) main_call0.call0.v0 select,
    TRef.unary main_call0.call0.v0 main_call0.v5 (broadcastInDim S1x1x1 ![0, 1] bcast_S1x1_S1x1x1_0_1),
    TRef.nullary main_call0.c_1 (constantI S1 32 999999#32),
    TRef.nullary main_call0.c_2 (constantI S_ 32 0#32),
    TRef.unary main_call0.c_2 main_call0.v6 (broadcastInDim S1x1x1 ![] bcast_S_S1x1x1),
    TRef.binary main_call0.v5 main_call0.v6 main_call0.v7 (cmpi .sge),
    TRef.unary main_call0.c_1 main_call0.v8 (broadcastInDim S1x1x1 ![2] bcast_S1_S1x1x1_2),
    TRef.binary main_call0.v5 main_call0.v8 main_call0.v9 (cmpi .sle),
    TRef.binary main_call0.v7 main_call0.v9 main_call0.v10 andi,
    TRef.nullary main_call0.c_3 (constantI S_ 1 1#1),
    TRef.binary main_call0.v10 main_call0.c_3 main_call0.v11 (fun x v => Host.reduce IntOp.andi x v reducesTo_S1x1x1_S1x1_d2 h_S_),
    TRef.binary (.of main_arg1) main_call0.v5 main_call0.v12 (fun x i => Host.gather gather_S1000000x128_S1x1x1_S1x1x128_2_0_n_n_0_2_1128 x i),
    TRef.unary main_call0.v11 main_call0.v13 (broadcastInDim S1x1x128 ![0, 1] bcast_S1x1_S1x1x128_0_1),
    TRef.nullary main_call0.cst (constant S_ .f32 0x7FC00000#32),
    TRef.unary main_call0.cst main_call0.v14 (broadcastInDim S1x1x128 ![] bcast_S_S1x1x128),
    TRef.ternary main_call0.v13 main_call0.v12 main_call0.v14 main_call0.v15 select,
    reshape main_v1 main_v2 rfl shapeCasts_S1x1x128_S1x128 ]

/-- @main is that straight line: the callees unfolded at their calls, sequencing reassociated. -/
theorem main_eq (c : Dev nD) : main (F := F) c = seq ops := by
  simp only [main, fn_take.body, fn_where.body, seq, bind_assoc, pure_bind]

/-- The index after the wrap of a negative one: `x` reshaped, plus the row count where it is negative. -/
def wrapped (x : IVec S_ 32) : IVec S1x1x1 32 :=
  broadcastInDim S1x1x1 ![0, 1] bcast_S1x1_S1x1x1_0_1
    (select (cmpi .slt (shapeCast S1x1 x shapeCasts_S_S1x1) (broadcastInDim S1x1 ![] bcast_S_S1x1 (constantI S_ 32 0#32)))
      (addi (shapeCast S1x1 x shapeCasts_S_S1x1) (broadcastInDim S1x1 ![] bcast_S_S1x1 (constantI S_ 32 1000000#32)))
      (shapeCast S1x1 x shapeCasts_S_S1x1))

/-- The in-range test of the wrapped index, reduced over the index vector's one component. -/
def inRange (x : IVec S_ 32) : IVec S1x1 1 :=
  Host.reduce IntOp.andi
    (andi (cmpi .sge (wrapped x) (broadcastInDim S1x1x1 ![] bcast_S_S1x1x1 (constantI S_ 32 0#32)))
      (cmpi .sle (wrapped x) (broadcastInDim S1x1x1 ![2] bcast_S1_S1x1x1_2 (constantI S1 32 999999#32))))
    (constantI S_ 1 1#1) reducesTo_S1x1x1_S1x1_d2 h_S_

/-- The reference's result as one function of the scalar index and the table. -/
def refOut (x : IVec S_ 32) (tab : FVec F S1000000x128 .f32) : FVec F S1x128 .f32 :=
  shapeCast S1x128
    (select (broadcastInDim S1x1x128 ![0, 1] bcast_S1x1_S1x1x128_0_1 (inRange x))
      (Host.gather gather_S1000000x128_S1x1x1_S1x1x128_2_0_n_n_0_2_1128 tab (wrapped x))
      (broadcastInDim S1x1x128 ![] bcast_S_S1x1x128 (constant (F := F) S_ .f32 0x7FC00000#32)))
    shapeCasts_S1x1x128_S1x128

set_option maxHeartbeats 4000000 in
/-- The fold of the 24 operations at the result buffer is `refOut` of the two arguments: the fold unrolled, each
    operation's result read where it is written and passed over elsewhere. -/
theorem out_eq (V : Valuation τ sig (Elt F)) :
    after ops V (main_v2 : DevRef τ sig) = refOut (V (main_arg0 : DevRef τ sig)) (V (main_arg1 : DevRef τ sig)) := by
  unfold refOut inRange wrapped
  after_results_simp
  try rfl

set_option maxHeartbeats 4000000 in
theorem arg0_eq (V : Valuation τ sig (Elt F)) : after ops V (main_arg0 : DevRef τ sig) = V (main_arg0 : DevRef τ sig) := by
  after_results_simp
  try rfl

set_option maxHeartbeats 4000000 in
theorem arg1_eq (V : Valuation τ sig (Elt F)) : after ops V (main_arg1 : DevRef τ sig) = V (main_arg1 : DevRef τ sig) := by
  after_results_simp
  try rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨reshape_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., reshape_bufs_sub ..⟩

/-- On every device, from any memory with zero counters: every weakly fair execution of @main terminates with the
    result at `refOut` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v2) = refOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v2).trans (out_eq _), (h c main_arg0).trans (arg0_eq _), (h c main_arg1).trans (arg1_eq _)⟩)
    (run_seq scopedRefs_eq scopedSems_eq defs main (fun _ => ops) main_eq (fun _ => ops_sub) m ρ)

end Cert.Proof.RefRun

end
-- ==== Proof.LibGatherRows3.lean ====
/-
  A gather of whole rows of a matrix by a rank-2 array of row indices, read at an index written by coordinates.

  `x[idx]` for a matrix `x : [M, C]` and start indices `idx : [B, N, 1]` is a gather whose dimension numbers collapse
  axis 0 of the operand (slice size 1), keep its axis 1 whole (slice size `C`, the result's offset axis 2), and read the
  start index for axis 0 along axis 2 of the indices. Its result at `(b, n, c)` is `x` at `(row b n, c)`, where
  `row b n` is the start index `idx (b, n, 0)` read as a signed integer and clamped into `[0, M − 1]`.
-/
import Idealize.ShloMosaic.PureOps.Ideal
import Idealize.ShloMosaic.Lib.ValueIdx

namespace Cert.LibGatherRows3

open Idealize.ShloMosaic Idealize.ShloMosaic.ValueIdx

variable {α : Type} {M B N C w : ℕ}

/-- The row of an `M`-row matrix the gather reads for result position `(b, n)`: the start index `idx (b, n, 0)` as a
    signed integer, clamped into `[0, M − 1]`. -/
def gatherRow (hM : 0 < M) (idx : IVec ⟨3, ![B, N, 1]⟩ w) (b : Fin B) (n : Fin N) : Fin M :=
  ⟨min (idx (ix3 b n (0 : Fin 1))).toInt.toNat (M - 1), by omega⟩

/-- THE GATHER READ AT `(b, n, c)`: for dimension numbers with offset axis `[2]`, collapsed axis `[0]`, no operand
    batching axes, start index map `[0]`, index vector axis 2 and slice sizes `[1, C]`, the result at `(b, n, c)` is the
    operand at `(gatherRow idx b n, c)`. On axis 0 the operand coordinate is the clamped start (no batching, no offset
    on a collapsed axis); on axis 1 it is the result's offset coordinate (no start, no batching). -/
theorem gather_rows3_apply (hM : 0 < M) (d : GatherDims ⟨2, ![M, C]⟩ ⟨3, ![B, N, 1]⟩ ⟨3, ![B, N, C]⟩)
    (hod : d.offsetDims = [2]) (hcs : d.collapsedSliceDims = [0]) (hob : d.operandBatchingDims = [])
    (hsm : d.startIndexMap = [0]) (hiv : d.indexVectorDim = 2) (hss : d.sliceSizes = ![1, C])
    (x : (⟨2, ![M, C]⟩ : Shape).Idx → α) (idx : IVec ⟨3, ![B, N, 1]⟩ w) (b : Fin B) (n : Fin N) (c : Fin C) :
    Host.gather d x idx (ix3 b n c) = x (ix2 (gatherRow hM idx b n) c) := by
  obtain ⟨od, cd, ob, sb, sm, iv, ss, wf⟩ := d
  simp only at hod hcs hob hsm hiv hss
  subst hod hcs hob hsm hiv hss
  unfold Host.gather
  congr 1
  funext a
  refine Fin.ext ?_
  match a with
  | ⟨0, _⟩ =>
    show GatherDims.start _ (ix3 b n c) idx 0 + GatherDims.batchCoord _ (ix3 b n c) 0 + GatherDims.offCoord _ (ix3 b n c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : GatherDims.siIdx (⟨[2], [0], [], sb, [0], 2, ![1, C], wf⟩ : GatherDims ⟨2, ![M, C]⟩ ⟨3, ![B, N, 1]⟩ ⟨3, ![B, N, C]⟩) (ix3 b n c)
        ⟨List.idxOf (0 : Fin 2) [0], List.idxOf_lt_length_iff.2 (List.mem_singleton.mpr rfl)⟩ = ix3 b n (0 : Fin 1) := by
      funext e; refine Fin.ext ?_
      match e with
      | ⟨0, _⟩ => rfl
      | ⟨1, _⟩ => rfl
      | ⟨2, _⟩ => rfl
    rw [hsi]
    rfl
  | ⟨1, _⟩ =>
    show GatherDims.start _ (ix3 b n c) idx 1 + GatherDims.batchCoord _ (ix3 b n c) 1 + GatherDims.offCoord _ (ix3 b n c) 1 = _
    rw [GatherDims.batchCoord_eq_zero _ _ _ List.not_mem_nil]
    have hst : GatherDims.start (⟨[2], [0], [], sb, [0], 2, ![1, C], wf⟩ : GatherDims ⟨2, ![M, C]⟩ ⟨3, ![B, N, 1]⟩ ⟨3, ![B, N, C]⟩) (ix3 b n c) idx 1 = 0 := by
      unfold GatherDims.start
      rw [dif_neg (show (1 : Fin 2) ∉ ([0] : List (Fin 2)) by decide)]
    have hoc : GatherDims.offCoord (⟨[2], [0], [], sb, [0], 2, ![1, C], wf⟩ : GatherDims ⟨2, ![M, C]⟩ ⟨3, ![B, N, 1]⟩ ⟨3, ![B, N, C]⟩) (ix3 b n c) 1 = c.val := by
      unfold GatherDims.offCoord
      rw [dif_pos ((GatherDims.mem_sKept _ _).mpr ⟨(show (1 : Fin 2) ∉ ([0] : List (Fin 2)) by decide), List.not_mem_nil⟩)]
      rfl
    rw [hst, hoc]
    simp

/-- A start index whose word is at most `M − 1` read unsigned (and below 2³¹) names its own row: nonnegative as a signed
    integer, so the signed read is the unsigned one, and the clamp does nothing. -/
theorem gatherRow_of_le (hM : 0 < M) (hM' : M ≤ 2 ^ 31) (idx : IVec ⟨3, ![B, N, 1]⟩ 32) (b : Fin B) (n : Fin N)
    (h : (idx (ix3 b n (0 : Fin 1))).toNat ≤ M - 1) :
    (gatherRow hM idx b n).val = (idx (ix3 b n (0 : Fin 1))).toNat := by
  unfold gatherRow
  show min (idx (ix3 b n (0 : Fin 1))).toInt.toNat (M - 1) = _
  rw [BitVec.toInt_eq_toNat_of_lt (by omega), Int.toNat_natCast]
  omega

end Cert.LibGatherRows3
-- ==== Proof.RefValue.lean ====
/-
  The reference's result read at an index, when the scalar index is the word 777.

  With `x = 777` nothing is wrapped (777 is not negative), the range test holds (`0 ≤ 777 ≤ 999999`), so the select keeps
  the gathered row; the gather reads row 777 (the start index is already inside `[0, 999999]`, the clamp moves
  nothing); and the final reshape only drops a unit axis. So the result at `(0, c)` is the table at `(777, c)`.
-/
import proofs.«204511_g20134806684162_cont_8to1_856_13_alg».proof.Proof.RefRun
import proofs.«204511_g20134806684162_cont_8to1_856_13_alg».proof.Proof.LibGatherRows3
import Idealize.ShloMosaic.Lib.ValueIdx
import Idealize.ShloMosaic.Lib.ValueLayout
import Idealize.ShloMosaic.Lib.Pipeline.Value

namespace Cert.Proof.RefValue

open Cert.ReferenceIdeal Cert.ReferenceIdeal.Gen Idealize.ShloMosaic Idealize.ShloMosaic.ValueIdx Cert.Proof.RefRun

variable {F : FTy → Type} [FloatOps F]

/-- A scalar array is the constant function at its one element. -/
theorem scalar_eq (x : IVec S_ 32) (w : BitVec 32) (hx : x ix0 = w) : x = fun _ => w :=
  funext fun i => (congrArg x (eq_ix0 i)).trans hx

/-- A conjunction of ones, folded from one, is one. -/
theorem foldl_andi_ones {ι : Type} (g : ι → BitVec 1) (l : List ι) (init : BitVec 1) (hinit : init = 1#1)
    (h : ∀ n ∈ l, g n = 1#1) : l.foldl (fun r n => IntOp.andi r (g n)) init = 1#1 := by
  subst hinit
  induction l with
  | nil => rfl
  | cons a l ih =>
    rw [List.foldl_cons, h a (List.mem_cons_self ..), show IntOp.andi 1#1 1#1 = (1#1 : BitVec 1) by decide]
    exact ih fun n hn => h n (List.mem_cons_of_mem _ hn)

/-- At 777 nothing is wrapped: 777 is not negative. -/
theorem wrapped_777 (k : S1x1x1.Idx) : wrapped (fun _ => 777#32) k = 777#32 := by
  unfold wrapped
  rfl

/-- At 777 the range test holds at its one position. -/
theorem inRange_777 (j : S1x1.Idx) : inRange (fun _ => 777#32) j = 1#1 := by
  unfold inRange Host.reduce
  refine foldl_andi_ones _ _ _ rfl fun n _ => ?_
  show IntOp.andi (IntOp.cmpi .sge (wrapped (fun _ => 777#32) _) _) (IntOp.cmpi .sle (wrapped (fun _ => 777#32) _) _) = 1#1
  rw [wrapped_777]
  show IntOp.andi (IntOp.cmpi .sge (777#32 : BitVec 32) 0#32) (IntOp.cmpi .sle (777#32 : BitVec 32) 999999#32) = 1#1
  decide

/-- The reference's result at `(0, c)`, the scalar index being 777: the table at `(777, c)`. -/
theorem refOut_777 (tab : FVec F S1000000x128 .f32) (c : Fin 128) :
    refOut (F := F) (fun _ => 777#32) tab (ix2 (0 : Fin 1) c) = tab (ix2 (⟨777, by decide⟩ : Fin 1000000) c) := by
  unfold refOut
  rw [shapeCast_1ab_ab_apply]
  show Scalar.select (inRange (fun _ => 777#32) _) (Host.gather _ tab (wrapped (fun _ => 777#32)) (ix3 (0 : Fin 1) (0 : Fin 1) c)) _ = _
  rw [inRange_777]
  show (if (1#1 : BitVec 1) = 1 then _ else _) = _
  rw [if_pos (show (1#1 : BitVec 1) = 1 from rfl), Cert.LibGatherRows3.gather_rows3_apply (by decide) _ rfl rfl rfl rfl rfl rfl]
  refine congrArg tab (congrArg (fun r => ix2 r c) (Fin.ext ?_))
  show min (wrapped (fun _ => 777#32) _).toInt.toNat (1000000 - 1) = 777
  rw [wrapped_777]
  decide

end Cert.Proof.RefValue
-- ==== Proof.PreWord.lean ====
/-
  What the precondition says of the scalar index.

  The precondition is the conjunction of two tests, each reduced to one bit: every table entry is finite, and the
  scalar index `x` satisfies `777 ≤ x` and `x ≤ 777` as signed words. Where the conjunction is 1, the second test is 1,
  so both signed comparisons hold of the one element of `x`, and that element is the word 777.
-/
import proofs.«204511_g20134806684162_cont_8to1_856_13_alg».proof.Pre_input_domain
import proofs.«204511_g20134806684162_cont_8to1_856_13_alg».proof.Proof.Gen.Pre_input_domain
import Idealize.ShloMosaic.Lib.ReduceAll
import Idealize.ShloMosaic.Lib.Affine
import Idealize.ShloMosaic.Lib.ValueIdx

namespace Cert.Proof.PreWord

open Cert.Pre_input_domain Cert.Pre_input_domain.Gen Idealize.ShloMosaic Idealize.ShloMosaic.ValueIdx

variable {F : FTy → Type} [FloatOps F]

instance : Subsingleton S_.Idx := ⟨fun a b => funext fun d => d.elim0⟩

/-- A word that is at least 777 and at most 777, both read signed, is 777. -/
theorem word_of_tests (v : BitVec 32) (e : IntOp.andi (IntOp.cmpi .sge v 777#32) (IntOp.cmpi .sle v 777#32) = 1#1) : v = 777#32 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide,
    decide_eq_true_eq, BitVec.toInt_eq_toNat_cond, BitVec.toNat_ofNat, Nat.reducePow, Nat.reduceMod] at e
  apply BitVec.eq_of_toNat_eq
  simp only [BitVec.toNat_ofNat, Nat.reducePow, Nat.reduceMod]
  omega

/-- Under the precondition the scalar index's one element is the word 777. -/
theorem word_of_pre (x : IVec S_ 32) (tab : FVec F S1000000x128 .f32) (h : fn (F := F) x tab = fun _ => 1#1) : x ix0 = 777#32 := by
  have e := congrFun h ix0
  dsimp only [fn] at e
  have e2 := IntOp.andi_eq_one.mp e
  have e3 := Host.reduce_andi_all _ _ _ _ _ e2.2 ix0
  exact word_of_tests _ e3

end Cert.Proof.PreWord
-- ==== Proof.lean ====
/-
  A one-row embedding lookup on the SparseCore against `jnp.take`: the five claims.

  The kernel: the TensorCore reshapes the scalar index `x` into a one-element array and starts SparseCore 0's
  sequencer, which copies that array into its scalar memory, loads the word `i`, and copies the 1 × 128 slice of the
  table at row `i` into the result. The reference: `jnp.take(table, x.reshape(1, 1), axis=0)[:, 0]` — wrap a negative
  index, test the range, gather the row with the start clamped, keep the row where the test holds.

  The precondition pins `x` to the word 777 (and the table's entries finite, which nothing here needs: the programs
  only move table entries). So the slice's side condition holds (row 777 lies inside the table), both kernel frames are
  the kernel's run with the values dropped, and at the ideal instance both results are the table's row 777: the
  kernel's because its row slice starts at row offset 777, the reference's because at 777 nothing is wrapped, the range
  test holds and the clamp moves nothing. The idealization rewrote no operation, so `preserves` is `True`.
-/
import proofs.«204511_g20134806684162_cont_8to1_856_13_alg».proof.Defs
import proofs.«204511_g20134806684162_cont_8to1_856_13_alg».proof.Proof.Gen.Kernel
import proofs.«204511_g20134806684162_cont_8to1_856_13_alg».proof.Proof.Gen.Kernel.Skeleton
import proofs.«204511_g20134806684162_cont_8to1_856_13_alg».proof.Proof.Gen.KernelIdeal
import proofs.«204511_g20134806684162_cont_8to1_856_13_alg».proof.Proof.Gen.KernelIdeal.Skeleton
import proofs.«204511_g20134806684162_cont_8to1_856_13_alg».proof.Proof.Gen.ReferenceIdeal
import proofs.«204511_g20134806684162_cont_8to1_856_13_alg».proof.Proof.Gen.Pre_input_domain
import proofs.«204511_g20134806684162_cont_8to1_856_13_alg».proof.Proof.LookupBitsWord
import proofs.«204511_g20134806684162_cont_8to1_856_13_alg».proof.Proof.LookupIdealWord
import proofs.«204511_g20134806684162_cont_8to1_856_13_alg».proof.Proof.RefValue
import proofs.«204511_g20134806684162_cont_8to1_856_13_alg».proof.Proof.PreWord
import Idealize.ShloMosaic.Adequacy
import Idealize.ShloMosaic.Init

noncomputable section

namespace Cert.Proof

open Idealize.ShloMosaic Idealize.SL.Sem Idealize.ShloMosaic.ValueIdx

/-- Under the precondition the word the sequencer loads is 777, and row 777 lies inside the table: the word-level kernel, -/
theorem chk_bits (m : (ℓ : Loc Cert.Kernel.nD Cert.Kernel.τ Cert.Kernel.sig) → Buf (Elt Bits) ℓ) (h : Cert.Pre_Kernel m) :
    ∀ d, Cert.Kernel.k0_chk1 (LookupBits.iw m d) := fun d => by
  rw [LookupBits.iw_eq, PreWord.word_of_pre _ _ (h d)]
  exact LookupBits.chk_777

/-- and the idealized one. -/
theorem chk_ideal (m : (ℓ : Loc Cert.KernelIdeal.nD Cert.KernelIdeal.τ Cert.KernelIdeal.sig) → Buf (Elt Ideal) ℓ) (h : Cert.Pre_KernelIdeal m) :
    ∀ d, Cert.KernelIdeal.k0_chk1 (LookupIdeal.iw m d) := fun d => by
  rw [LookupIdeal.iw_eq, PreWord.word_of_pre _ _ (h d)]
  exact LookupIdeal.chk_777

/-- The kernel's frames: its run with the result's value dropped. -/
theorem frame_k : Cert.frame_Kernel := fun m ρ hpre =>
  (θ_run Cert.Kernel.defs _ _).mono (fun _ h c => (h c).2) (LookupBits.run_main (F := Bits) m ρ (chk_bits m hpre))

theorem frame_ki : Cert.frame_KernelIdeal := fun m ρ hpre =>
  (θ_run Cert.KernelIdeal.defs _ _).mono (fun _ h c => (h c).2) (LookupIdeal.run_main (F := Ideal) m ρ (chk_ideal m hpre))

/-- The reference's frame: its run with the result's value dropped. -/
theorem frame_ri : Cert.frame_ReferenceIdeal := fun m ρ _ =>
  (θ_run Cert.ReferenceIdeal.defs _ _).mono (fun _ h c => (h c).2) (RefRun.run (F := Ideal) m ρ)

/-- With the scalar index at 777, the reference's result and the kernel's row slice are one array: row 777 of the table. -/
theorem result_eq (m : (ℓ : Loc Cert.KernelIdeal.nD Cert.KernelIdeal.τ Cert.KernelIdeal.sig) → Buf (Elt Ideal) ℓ) (hpre : Cert.Pre_KernelIdeal m)
    (c : Dev Cert.KernelIdeal.nD) :
    RefRun.refOut (F := Ideal) (m (LookupIdeal.xLoc c)) (m (LookupIdeal.tabLoc c)) = LookupIdeal.outVal m (chk_ideal m hpre) c := by
  have hw : m (LookupIdeal.xLoc c) ix0 = 777#32 := PreWord.word_of_pre _ _ (hpre c)
  funext j
  obtain ⟨p, q, rfl⟩ : ∃ (p : Fin 1) (q : Fin 128), j = ix2 p q := ⟨j 0, j 1, eq_ix2 j⟩
  obtain rfl : p = 0 := Subsingleton.elim _ _
  rw [RefValue.scalar_eq _ _ hw, RefValue.refOut_777]
  refine (congrArg (m (LookupIdeal.tabLoc c)) (congrArg (fun r => ix2 r q) (Fin.ext ?_))).trans (LookupIdeal.outVal_apply m (chk_ideal m hpre) c q).symm
  show 777 = (LookupIdeal.iw m c).toNat
  rw [LookupIdeal.iw_eq, hw]
  rfl

/-- At the ideal instance the kernel's result (its run) and the reference's (its run) are that one array. -/
theorem algebraic : Cert.algebraic_KernelIdeal_ReferenceIdeal := by
  intro m ρ m' ρ' hpre hagree
  refine ⟨fun c => LookupIdeal.outVal m (chk_ideal m hpre) c, LookupIdeal.run_main (F := Ideal) m ρ (chk_ideal m hpre), ?_⟩
  refine (θ_run Cert.ReferenceIdeal.defs _ _).mono (fun _ h c => ⟨(h c).1.trans ?_, (h c).2⟩) (RefRun.run (F := Ideal) m' ρ')
  rw [(hagree c).1, (hagree c).2]
  exact result_eq m hpre c

theorem claim : Cert.Claim :=
  ⟨Cert.Kernel.Gen.facts, Cert.KernelIdeal.Gen.facts, Cert.ReferenceIdeal.Gen.facts, Cert.Pre_input_domain.Gen.facts,
    frame_k, frame_ki, frame_ri, trivial, algebraic⟩

end Cert.Proof

end
